-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S16384x1 : Shape := ⟨2, ![16384, 1]⟩
abbrev S1x16384 : Shape := ⟨2, ![1, 16384]⟩
abbrev S16x1x1 : Shape := ⟨3, ![16, 1, 1]⟩
abbrev S1024x1 : Shape := ⟨2, ![1024, 1]⟩
abbrev S1x1x1 : Shape := ⟨3, ![1, 1, 1]⟩
abbrev S1x1 : Shape := ⟨2, ![1, 1]⟩
abbrev S1x512 : Shape := ⟨2, ![1, 512]⟩
abbrev S1024x512 : Shape := ⟨2, ![1024, 512]⟩
abbrev S1024 : Shape := ⟨1, ![1024]⟩
abbrev S1 : Shape := ⟨1, ![1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S16384x1, .f32⟩
  | .hbm, ⟨4, _⟩ => ⟨S1x16384, .f32⟩
  | .hbm, ⟨5, _⟩ => ⟨S1x16384, .f32⟩
  | .hbm, ⟨6, _⟩ => ⟨S16x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x16384, .f32⟩
  | .local _ .vmem, ⟨5, _⟩ => ⟨S1x16384, .f32⟩
  | .local _ .vmem, ⟨6, _⟩ => ⟨S1x1x1, .f32⟩
  | .local _ .vmem, ⟨7, _⟩ => ⟨S1x1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  v9
def k0_off1 (k0_t1 : Fin k0_t1_loop.trips) : Fin 2 → Nat :=
  let c0_7 : Index := 0#32
  let c0_i32 : BitVec 32 := 0#32
  let c1_i32 : BitVec 32 := 1#32
  let arg6 : BitVec 32 := Scf.iv c0_i32 c1_i32 k0_t1
  let c512_i32 : BitVec 32 := 512#32
  let v9 : BitVec 32 := Scalar.muli arg6 c512_i32
  let v10 : BitVec 32 := v9
  let v11 : Index := Scalar.indexCast v10
  ![0, v11.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x512.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x1, .f32⟩
  | .hbm, ⟨3, _⟩ => ⟨S1x16384, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x1, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S_, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_cst_4 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel

variable [Facts₀]

class Facts : Prop extends Facts₀ where

variable [Facts]
-- ==== Proof.Pair.lean ====
/-
  The summand of the statistic: for two samples with predictions `a`, `b` and targets `c`, `d`, the product of the
  two clipped differences, `min(1, max(-1, a - b)) * min(1, max(-1, c - d))`, on the extended reals. The bounds stay the
  two float words both programs spell (`-1.0` and `1.0`): the same word on both sides is never evaluated.
-/
import Idealize.ShloMosaic.PureOps.Ideal

noncomputable section

namespace Cert.Kendall

open Idealize.ShloMosaic

/-- The clipped difference `min(hi, max(lo, a - b))` of two extended reals, the bounds kept as parameters. -/
def clipDiff (lo hi a b : EReal) : EReal := min hi (max lo (a - b))

/-- One pair's contribution: the product of the clipped prediction difference and the clipped target difference. -/
def pair (lo hi a b c d : EReal) : EReal := clipDiff lo hi a b * clipDiff lo hi c d

/-- The lower clip bound, the word of `-1.0`. -/
abbrev lo : EReal := Ideal.ofBits .f32 0xBF800000#32
/-- The upper clip bound, the word of `1.0`. -/
abbrev hi : EReal := Ideal.ofBits .f32 0x3F800000#32

end Cert.Kendall

end
-- ==== Proof.Layout.lean ====
/-
  Two layout operations read at an index given by coordinates, for the column forms a sum with kept dimensions meets:
  a vector `[a]` cast to a column `[a, 1]`, and a column `[a, 1]` broadcast along the lanes to `[a, b]`.
-/
import Idealize.ShloMosaic.Lib.ValueLayout

namespace Cert.Kendall

open Idealize.ShloMosaic Idealize.ShloMosaic.ValueIdx

variable {α : Type}

/-- A vector `[a]` cast to a column `[a, 1]` reads, at `(i, u)`, the vector at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Kendall
-- ==== Proof.KernelTrip.lean ====
/-
  One trip of the kernel's column sweep, read at the ideal values. The trip holds a tile of 1024 rows (the column
  blocks `v0`, `v2` of predictions and targets) against a chunk of 512 lanes (`v12`, `v15`): it forms the 1024 x 512
  table of pair products, sums each row over its lanes, sums the rows, and adds the total to the carried value. So the
  carried value grows by the sum over the tile's rows and the chunk's lanes of the pair products.
-/
import proofs.«113386_j58325655880083_2_alg».proof.Proof.Gen.KernelIdeal.Skeleton
import proofs.«113386_j58325655880083_2_alg».proof.Proof.Pair
import proofs.«113386_j58325655880083_2_alg».proof.Proof.Layout
import Idealize.ShloMosaic.Lib.ValueIdx
import Idealize.ShloMosaic.Lib.ValueLayout
import Idealize.ShloMosaic.PureOps.Ideal.Laws

noncomputable section

namespace Cert.Kendall

open Idealize.ShloMosaic Idealize.ShloMosaic.ValueIdx Cert.KernelIdeal Cert.KernelIdeal.Gen

/-- The table of pair products of a row tile against a lane chunk, at row `p` and lane `l`. -/
theorem tile_apply (v0 v2 : FVec Ideal S1024x1 .f32) (v12 v15 : FVec Ideal S1x512 .f32) (p : Fin 1024) (l : Fin 512) :
    mulf
      (minimumf (broadcast S1024x512 (Scalar.ofBits (F := Ideal) .f32 0x3F800000#32))
        (maximumf (broadcast S1024x512 (Scalar.ofBits (F := Ideal) .f32 0xBF800000#32))
          (subf (broadcastTo S1024x512 (shapeCast S1024x1 v0 shapeCasts_S1024x1_S1024x1) broadcasts_S1024x1_S1024x512)
            (broadcastTo S1024x512 (shapeCast S1x512 v12 shapeCasts_S1x512_S1x512) broadcasts_S1x512_S1024x512))))
      (minimumf (broadcast S1024x512 (Scalar.ofBits (F := Ideal) .f32 0x3F800000#32))
        (maximumf (broadcast S1024x512 (Scalar.ofBits (F := Ideal) .f32 0xBF800000#32))
          (subf (broadcastTo S1024x512 (shapeCast S1024x1 v2 shapeCasts_S1024x1_S1024x1) broadcasts_S1024x1_S1024x512)
            (broadcastTo S1024x512 (shapeCast S1x512 v15 shapeCasts_S1x512_S1x512) broadcasts_S1x512_S1024x512))))
      (ix2 p l)
      = pair lo hi (v0 (ix2 p (0 : Fin 1))) (v12 (ix2 (0 : Fin 1) l)) (v2 (ix2 p (0 : Fin 1))) (v15 (ix2 (0 : Fin 1) l)) := by
  rw [shapeCast_self, shapeCast_self, shapeCast_self, shapeCast_self]
  show min _ (max _ (broadcastTo S1024x512 v0 _ (ix2 p l) - broadcastTo S1024x512 v12 _ (ix2 p l)))
      * min _ (max _ (broadcastTo S1024x512 v2 _ (ix2 p l) - broadcastTo S1024x512 v15 _ (ix2 p l))) = _
  rw [broadcastTo_a1_ab_apply v0, broadcastTo_a1_ab_apply v2, broadcastTo_1b_ab_apply v12, broadcastTo_1b_ab_apply v15]
  rfl

/-- One trip adds to the carried value the sum, over the tile's rows and the chunk's lanes, of the pair products: the lane
    reduction is the sum over the 512 lanes of a row, the sublane reduction the sum over the 1024 rows, and the casts
    between `[1024]`, `[1024, 1]`, `[1]` and `[1, 1]` move no value. -/
theorem pay2_apply (v0 v2 : FVec Ideal S1024x1 .f32) (acc : FVec Ideal S1x1 .f32) (v12 v15 : FVec Ideal S1x512 .f32)
    (u u' : Fin 1) :
    k0_pay2 (F := Ideal) v0 v2 acc v12 v15 (ix2 u u')
      = acc (ix2 u u') + ∑ r : Fin 1024, ∑ l : Fin 512,
          pair lo hi (v0 (ix2 r (0 : Fin 1))) (v12 (ix2 (0 : Fin 1) l)) (v2 (ix2 r (0 : Fin 1))) (v15 (ix2 (0 : Fin 1) l)) := by
  unfold k0_pay2
  dsimp only
  refine (addf_apply _ _ _).trans (congrArg (acc (ix2 u u') + ·) ?_)
  refine (shapeCast_a_1a_apply _ _ u u').trans ?_
  refine (Ideal.multiReduction_add_single _ 0x00000000#32 reduces_S1024x1_S1 (.inl rfl) rfl (ix1 u')).trans ?_
  refine Finset.sum_congr rfl fun (r : Fin 1024) _ => ?_
  have e1 : (reduces_S1024x1_S1).lift (ix1 u') r = ix2 r u' :=
    funext fun d => match d with | ⟨0, _⟩ => Fin.ext rfl | ⟨1, _⟩ => Fin.ext rfl
  refine (congrArg _ e1).trans ?_
  refine (shapeCast_a_a1_apply _ _ r u').trans ?_
  refine (Ideal.multiReduction_add_single _ 0x00000000#32 reduces_S1024x512_S1024 (.inl rfl) rfl (ix1 r)).trans ?_
  refine Finset.sum_congr rfl fun (l : Fin 512) _ => ?_
  have e2 : (reduces_S1024x512_S1024).lift (ix1 r) l = ix2 r l :=
    funext fun d => match d with | ⟨0, _⟩ => Fin.ext rfl | ⟨1, _⟩ => Fin.ext rfl
  refine (congrArg _ e2).trans ?_
  exact tile_apply v0 v2 v12 v15 r l

end Cert.Kendall

end
-- ==== Proof.Tiling.lean ====
/-
  Sums over tiles. An axis of `A * B` positions cut into `A` tiles of `B`: position `B * a + b` is the `b`-th of tile
  `a`, and a sum over the axis is the sum over the tiles of the sums inside each. A square table summed by row tiles
  and column tiles, the row tiles outermost and the rows of a tile summed INSIDE the column tiles, is the sum of the
  whole table. And a value carried through `n` steps, each adding one term, ends at the start plus the sum of the terms.
  All in an additive commutative monoid: only commutativity and associativity of `+` are used, so the laws hold on the
  extended reals with their infinities.
-/
import Mathlib.Algebra.BigOperators.Fin
import Mathlib.Algebra.BigOperators.Group.Finset.Basic
import Mathlib.Logic.Equiv.Fin.Basic

namespace Cert.Kendall

open Finset

/-- Position `B * a + b` of an axis of `N = A * B` positions: the `b`-th position of tile `a`. -/
def tileIdx {A B N : ℕ} (h : A * B = N) (a : Fin A) (b : Fin B) : Fin N :=
  ⟨B * a.val + b.val, by
    subst h
    calc B * a.val + b.val < B * a.val + B := Nat.add_lt_add_left b.isLt _
      _ = B * (a.val + 1) := (Nat.mul_succ _ _).symm
      _ ≤ B * A := Nat.mul_le_mul_left _ a.isLt
      _ = A * B := Nat.mul_comm _ _⟩

@[simp] theorem tileIdx_val {A B N : ℕ} (h : A * B = N) (a : Fin A) (b : Fin B) :
    (tileIdx h a b).val = B * a.val + b.val := rfl

/-- A sum over an axis is the sum over its tiles of the sums inside the tiles. -/
theorem sum_tileIdx {M : Type*} [AddCommMonoid M] {A B N : ℕ} (h : A * B = N) (g : Fin N → M) :
    ∑ i : Fin N, g i = ∑ a : Fin A, ∑ b : Fin B, g (tileIdx h a b) := by
  subst h
  rw [← Equiv.sum_comp finProdFinEquiv g, Fintype.sum_prod_type]
  refine sum_congr rfl fun a _ => sum_congr rfl fun b _ => congrArg g (Fin.ext ?_)
  simp [finProdFinEquiv, Nat.add_comm]

/-- A square table summed tile by tile — row tiles outermost, then column tiles, then the rows of the row tile, then the
    columns of the column tile — is the table summed row by row. -/
theorem sum_tiles {M : Type*} [AddCommMonoid M] {A B C D N : ℕ} (hr : A * B = N) (hc : C * D = N)
    (g : Fin N → Fin N → M) :
    ∑ a : Fin A, ∑ c : Fin C, ∑ b : Fin B, ∑ d : Fin D, g (tileIdx hr a b) (tileIdx hc c d)
      = ∑ i : Fin N, ∑ j : Fin N, g i j := by
  rw [sum_tileIdx hr]
  refine sum_congr rfl fun a _ => ?_
  rw [sum_comm]
  refine sum_congr rfl fun b _ => ?_
  rw [sum_tileIdx hc]

/-- A value carried through `n` steps, step `k` adding `c k` to it, ends at the initial value plus the sum of all the
    terms. -/
theorem carried_sum {M : Type*} [AddCommMonoid M] (n : ℕ) (c : Fin n → M) (st : ℕ → M) (init : M)
    (h0 : st 0 = init) (hs : ∀ k : Fin n, st (k.val + 1) = st k.val + c k) :
    st n = init + ∑ k : Fin n, c k := by
  have key : ∀ j (hj : j ≤ n), st j = init + ∑ k : Fin j, c (Fin.castLE hj k) := by
    intro j
    induction j with
    | zero => intro _; simp [h0]
    | succ j ih =>
      intro hj
      have hj' : j ≤ n := Nat.le_of_succ_le hj
      rw [hs ⟨j, hj⟩, ih hj', Fin.sum_univ_castSucc, add_assoc]
      rfl
  simpa using key n le_rfl

end Cert.Kendall
-- ==== Proof.KernelBlock.lean ====
/-
  What one grid point of the kernel leaves in its output block, at the ideal values. The point holds a tile of 1024
  rows (its column blocks of predictions and targets) and both whole row vectors. Its loop makes 32 trips; trip `k`
  loads lanes `512 k .. 512 k + 511` of the row vectors and adds to the carried value the sum of the pair products of the
  tile's rows against those lanes. The carried value starts at zero, so after the loop it is the sum over the 32 chunks,
  and that is the one entry of the point's output block.
-/
import proofs.«113386_j58325655880083_2_alg».proof.Proof.Gen.KernelIdeal.Frame
import proofs.«113386_j58325655880083_2_alg».proof.Proof.KernelTrip
import proofs.«113386_j58325655880083_2_alg».proof.Proof.Tiling
import Idealize.ShloMosaic.Lib.Pipeline.Value
import Idealize.ShloMosaic.Lib.ValueLayout

set_option maxRecDepth 16384

noncomputable section

namespace Cert.Kendall

open Idealize.ShloMosaic Idealize.ShloMosaic.ValueIdx Idealize.SL.Sem Cert.KernelIdeal Cert.KernelIdeal.Gen

/-- 32 chunks of 512 lanes make the 16384 lanes of a row vector. -/
theorem h_chunks : 32 * 512 = 16384 := by decide

/-- The loop makes 32 trips. -/
theorem trips_eq : k0_t1_loop.trips = 32 := by decide +kernel

/-- What trip `k` adds: the sum over the tile's rows and the lanes of chunk `k` of the pair products. -/
def chunkSum (x0 x1 : Vec Ideal S1024x1 .f32) (x2 x3 : Vec Ideal S1x16384 .f32) (k : Fin 32) : EReal :=
  ∑ r : Fin 1024, ∑ l : Fin 512,
    pair lo hi (x0 (ix2 r (0 : Fin 1))) (x2 (ix2 (0 : Fin 1) (tileIdx h_chunks k l)))
      (x1 (ix2 r (0 : Fin 1))) (x3 (ix2 (0 : Fin 1) (tileIdx h_chunks k l)))

/-- The chunk trip `k` loads from a whole row vector holds, at lane `l`, the vector's entry `512 k + l`. -/
theorem chunk_apply (arg : Memref sig .tc .vmem S1x16384 .f32) (harg : arg.IsWhole) (x : Vec Ideal S1x16384 .f32)
    (k : Fin k0_t1_loop.trips) (hk : k.val < 32) (l : Fin 512) :
    View.readAt (Elt Ideal) arg.view (Rect.unit (s := S1x16384) (k0_off1 k) S1x512.size (k0_off1_inb k)).toLoadRect
        (harg.unread x) (ix2 (0 : Fin 1) l)
      = x (ix2 (0 : Fin 1) (tileIdx h_chunks ⟨k.val, hk⟩ l)) := by
  rw [View.readAt_eq_ld, harg.read_unread]
  show x ((Rect.unit (s := S1x16384) (k0_off1 k) S1x512.size (k0_off1_inb k)).idx (ix2 (0 : Fin 1) l)) = _
  refine congrArg x (funext fun d => ?_)
  match d with
  | ⟨0, _⟩ => exact Fin.ext (by show (k0_off1 k) 0 + 1 * 0 = 0; rw [k0_off1_eq]; rfl)
  | ⟨1, _⟩ => exact Fin.ext (by show (k0_off1 k) 1 + 1 * l.val = 512 * k.val + l.val; rw [k0_off1_eq]; simp)

/-- One trip's result: the carried value plus the chunk's sum. -/
theorem trip_apply (c : Dev nD) (i : grid0.Coords) (arg1 : Memref sig .tc .vmem S1024x1 .f32) (harg1 : arg1.IsWhole) (arg2 : Memref sig .tc .vmem S1024x1 .f32) (harg2 : arg2.IsWhole) (arg3 : Memref sig .tc .vmem S1x16384 .f32) (harg3 : arg3.IsWhole) (arg4 : Memref sig .tc .vmem S1x16384 .f32) (harg4 : arg4.IsWhole) (arg5 : Memref sig .tc .vmem S1x1x1 .f32) (harg5 : arg5.IsWhole)
    (v0 v2 : Vec Ideal S1024x1 .f32) (x2 x3 : Vec Ideal S1x16384 .f32) (k : Fin k0_t1_loop.trips) (hk : k.val < 32)
    (acc : FVec Ideal S1x1 .f32) (u u' : Fin 1) :
    tripR_k0_t1 (F := Ideal) Variants.none c none i arg1 harg1 arg2 harg2 arg3 harg3 arg4 harg4 arg5 harg5 v0 v2 (harg3.unread x2) (harg4.unread x3) k acc (ix2 u u')
      = acc (ix2 u u') + chunkSum v0 v2 x2 x3 ⟨k.val, hk⟩ := by
  unfold tripR_k0_t1 trip_k0_t1
  dsimp only
  refine (pay2_apply _ _ _ _ _ u u').trans ?_
  unfold chunkSum
  simp only [chunk_apply arg3 harg3 x2 k hk, chunk_apply arg4 harg4 x3 k hk]

/-- After the loop's 32 trips, from the zero start, the carried value is the sum over the 32 chunks. -/
theorem carried_apply (c : Dev nD) (i : grid0.Coords) (arg1 : Memref sig .tc .vmem S1024x1 .f32) (harg1 : arg1.IsWhole) (arg2 : Memref sig .tc .vmem S1024x1 .f32) (harg2 : arg2.IsWhole) (arg3 : Memref sig .tc .vmem S1x16384 .f32) (harg3 : arg3.IsWhole) (arg4 : Memref sig .tc .vmem S1x16384 .f32) (harg4 : arg4.IsWhole) (arg5 : Memref sig .tc .vmem S1x1x1 .f32) (harg5 : arg5.IsWhole)
    (v0 v2 : Vec Ideal S1024x1 .f32) (x2 x3 : Vec Ideal S1x16384 .f32) (u u' : Fin 1) :
    st_k0_t1 (F := Ideal) Variants.none c none i arg1 harg1 arg2 harg2 arg3 harg3 arg4 harg4 arg5 harg5 v0 v2 (harg3.unread x2) (harg4.unread x3) k0_pay1
        k0_t1_loop.trips (ix2 u u')
      = ∑ k : Fin 32, chunkSum v0 v2 x2 x3 k := by
  rw [trips_eq]
  refine (carried_sum 32 (chunkSum v0 v2 x2 x3)
    (fun n => st_k0_t1 (F := Ideal) Variants.none c none i arg1 harg1 arg2 harg2 arg3 harg3 arg4 harg4 arg5 harg5 v0 v2 (harg3.unread x2) (harg4.unread x3)
      k0_pay1 n (ix2 u u'))
    (k0_pay1 (F := Ideal) (ix2 u u')) rfl (fun k => ?_)).trans ?_
  · have hk' : k.val < k0_t1_loop.trips := by rw [trips_eq]; exact k.isLt
    exact (congrFun (st_k0_t1_succ (F := Ideal) Variants.none c none i arg1 harg1 arg2 harg2 arg3 harg3 arg4 harg4 arg5 harg5 v0 v2 (harg3.unread x2)
        (harg4.unread x3) k0_pay1 ⟨k.val, hk'⟩) (ix2 u u')).trans
      (trip_apply c i arg1 harg1 arg2 harg2 arg3 harg3 arg4 harg4 arg5 harg5 v0 v2 x2 x3 ⟨k.val, hk'⟩ k.isLt _ u u')
  · show Ideal.ofBits .f32 0x00000000#32 + _ = _
    rw [Ideal.ofBits_zero_f32, zero_add]

/-- The output block a grid point leaves: its one entry is the sum over the 32 chunks of the pair products of the
    point's rows against the chunk's lanes. (The block is what the body's one store wrote, the carried value after the
    loop recast to `[1, 1, 1]`; the column blocks are loaded whole.) -/
theorem block_apply (c : Dev nD) (i : grid0.Coords) (arg1 : Memref sig .tc .vmem S1024x1 .f32) (harg1 : arg1.IsWhole) (arg2 : Memref sig .tc .vmem S1024x1 .f32) (harg2 : arg2.IsWhole) (arg3 : Memref sig .tc .vmem S1x16384 .f32) (harg3 : arg3.IsWhole) (arg4 : Memref sig .tc .vmem S1x16384 .f32) (harg4 : arg4.IsWhole) (arg5 : Memref sig .tc .vmem S1x1x1 .f32) (harg5 : arg5.IsWhole)
    (x0 x1 : Vec Ideal S1024x1 .f32) (x2 x3 : Vec Ideal S1x16384 .f32) (y : S1x1x1.Idx) :
    out0_A_4 (F := Ideal) c i arg1 harg1 arg2 harg2 arg3 harg3 arg4 harg4 arg5 harg5 x0 x1 x2 x3 y = ∑ k : Fin 32, chunkSum x0 x1 x2 x3 k := by
  have hz3 : (![0, 0, 0] : Fin 3 → Nat) = fun _ => 0 := funext fun a => by fin_cases a <;> rfl
  have hz2 : (![0, 0] : Fin 2 → Nat) = fun _ => 0 := funext fun a => by fin_cases a <;> rfl
  obtain ⟨a, b, d, rfl⟩ : ∃ (a b d : Fin 1), y = ix3 a b d := ⟨y 0, y 1, y 2, eq_ix3 y⟩
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero hz3]
  simp only [View.readAt_eq_ld, harg1.read_unread, harg2.read_unread, View.ld_unit_zero (S := S1024x1) hz2]
  unfold k0_pay3
  refine (shapeCast_ab_1ab_apply _ _ a b d).trans ?_
  exact carried_apply c i arg1 harg1 arg2 harg2 arg3 harg3 arg4 harg4 arg5 harg5 x0 x1 x2 x3 b d

end Cert.Kendall

end
-- ==== Proof.Stat.lean ====
/-
  The statistic both programs compute, as ONE function of the two argument arrays of 16384 samples: with
  `T = sum over all ordered pairs (i, j) of clip(x i - x j) * clip(y i - y j)` (the clip to [-1, 1]),
  the result is `1 - T / (16384 * 16383)`, on the extended reals. The divisor stays the float word both programs spell
  (`0x4D7FFC00`, which is 2^28 - 2^14 exactly), and the division stays the ideal division, whatever it does at the
  infinities: both programs divide the same sum by the same word.
-/
import proofs.«113386_j58325655880083_2_alg».proof.Proof.Pair
import Idealize.ShloMosaic.Lib.ValueIdx

noncomputable section

namespace Cert.Kendall

open Idealize.ShloMosaic Idealize.ShloMosaic.ValueIdx

/-- An argument array: 16384 extended reals. -/
abbrev Arr : Type := (⟨1, ![16384]⟩ : Shape).Idx → EReal

/-- The contribution of the ordered pair of samples `(i, j)`. -/
def term (x y : Arr) (i j : Fin 16384) : EReal :=
  pair lo hi (x (ix1 i)) (x (ix1 j)) (y (ix1 i)) (y (ix1 j))

/-- The sum of the contributions of all ordered pairs. -/
def total (x y : Arr) : EReal := ∑ i : Fin 16384, ∑ j : Fin 16384, term x y i j

/-- The statistic, as the rank-0 result both programs return. -/
def stat (x y : Arr) : (⟨0, ![]⟩ : Shape).Idx → EReal :=
  fun _ => Ideal.ofBits .f32 0x3F800000#32 - Ideal.div (total x y) (Ideal.ofBits .f32 0x4D7FFC00#32)

end Cert.Kendall

end
-- ==== Proof.KernelValue.lean ====
/-
  The kernel's result, at the ideal values. Before the region the host recasts each argument as a column `[16384, 1]` and
  as a row `[1, 16384]`. Grid point `t` (of 16) holds rows `1024 t .. 1024 t + 1023` of the two columns and both whole rows,
  so the block it writes back — entry `t` of the `[16, 1, 1]` output — is the sum of the pair terms of those rows against
  all 16384 samples, taken chunk by chunk. The 16 blocks tile the output. After the region the host sums the 16 entries
  from zero, divides by the word of 16384 * 16383 and subtracts from one: the statistic, because the 16 x 32 tiles of
  1024 x 512 pairs are a partition of all ordered pairs and the sum of extended reals does not depend on the order.
-/
import proofs.«113386_j58325655880083_2_alg».proof.Proof.Gen.KernelIdeal.Frame
import proofs.«113386_j58325655880083_2_alg».proof.Proof.KernelBlock
import proofs.«113386_j58325655880083_2_alg».proof.Proof.Stat
import proofs.«113386_j58325655880083_2_alg».proof.Proof.Tiling
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.Kendall

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ) (ρ : Dev nD → PrngReg)

/-- The predictions and the targets as core `c` is launched with them. -/
abbrev xs (c : Dev nD) : Arr := m ((c : Thread nD τ).loc main_arg0)
abbrev ys (c : Dev nD) : Arr := m ((c : Thread nD τ).loc main_arg1)

/-- 16 tiles of 1024 rows make the 16384 samples. -/
theorem h_tiles : 16 * 1024 = 16384 := by decide

/-- The sum of the pair terms of the rows of tile `t` against every sample, chunk by chunk. -/
def rowTileSum (x y : Arr) (t : Fin 16) : EReal :=
  ∑ k : Fin 32, ∑ r : Fin 1024, ∑ l : Fin 512, term x y (tileIdx h_tiles t r) (tileIdx h_chunks k l)

/-- The `[16, 1, 1]` output: entry `t` is the sum for tile `t`. -/
def outArr (x y : Arr) : S16x1x1.Idx → EReal := fun j => rowTileSum x y ⟨(j 0).val, (j 0).isLt⟩

/-! ## The arrays the region finds -/

theorem V_col_x (c : Dev nD) : (V m c main_v0 : S16384x1.Idx → EReal)
    = shapeCast S16384x1 (xs m c) shapeCasts_S16384_S16384x1 := by
  show StableHlo.after hostOps0 (fun b => m (c, b)) (Proc.devRef .tc main_v0) = _
  after_results
  rfl
theorem V_col_y (c : Dev nD) : (V m c main_v1 : S16384x1.Idx → EReal)
    = shapeCast S16384x1 (ys m c) shapeCasts_S16384_S16384x1 := by
  show StableHlo.after hostOps0 (fun b => m (c, b)) (Proc.devRef .tc main_v1) = _
  after_results
  rfl
theorem V_row_x (c : Dev nD) : (V m c main_v2 : S1x16384.Idx → EReal)
    = shapeCast S1x16384 (xs m c) shapeCasts_S16384_S1x16384 := by
  show StableHlo.after hostOps0 (fun b => m (c, b)) (Proc.devRef .tc main_v2) = _
  after_results
  rfl
theorem V_row_y (c : Dev nD) : (V m c main_v3 : S1x16384.Idx → EReal)
    = shapeCast S1x16384 (ys m c) shapeCasts_S16384_S1x16384 := by
  show StableHlo.after hostOps0 (fun b => m (c, b)) (Proc.devRef .tc main_v3) = _
  after_results
  rfl

/-- A column `[16384, 1]` recast from an array reads it at the row; a row `[1, 16384]` at the lane. -/
theorem col_apply (x : Arr) (i : Fin 16384) (u : Fin 1) :
    shapeCast S16384x1 x shapeCasts_S16384_S16384x1 (ix2 i u) = x (ix1 i) :=
  shapeCast_a_a1_apply x _ i u
theorem row_apply (x : Arr) (u : Fin 1) (i : Fin 16384) :
    shapeCast S1x16384 x shapeCasts_S16384_S1x16384 (ix2 u i) = x (ix1 i) :=
  shapeCast_a_1a_apply x _ u i

/-! ## The blocks of a grid point -/

/-- The printed index maps, decided over the grid: the column blocks and the output block move with the point, the
    rows stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point is one of 16. -/
theorem pt_lt (t : Fin cfg0.N) : t.val < 16 := Nat.lt_of_lt_of_eq t.isLt N_0

/-- Row `r` of point `t`'s column block of predictions is sample `1024 t + r`. -/
theorem colblk_x (c : Dev nD) (t : Fin cfg0.N) (r : Fin 1024) (u : Fin 1) :
    (iblk m c 0 t : Vec Ideal S1024x1 .f32) (ix2 r u) = xs m c (ix1 (tileIdx h_tiles ⟨t.val, pt_lt t⟩ r)) := by
  obtain ⟨e0, e1, -⟩ := idx_facts t
  have hu : u.val = 0 := by omega
  show (V m c main_v0 : S16384x1.Idx → EReal) (((cfg0.win 0).blk t).view.emb (ix2 r u)) = _
  rw [V_col_x]
  refine (shapeCast_apply _ _ _ (ix1 (tileIdx h_tiles ⟨t.val, pt_lt t⟩ r)) ?_).trans rfl
  rw [Shape.rowMajor_val_one, Shape.rowMajor_val_two]
  show 1024 * t.val + r.val = (win0_0.index t (0 : Fin 2) * 1024 + 1 * r.val) * 1 + (win0_0.index t (1 : Fin 2) * 1 + 1 * u.val)
  omega

/-- Row `r` of point `t`'s column block of targets is sample `1024 t + r`. -/
theorem colblk_y (c : Dev nD) (t : Fin cfg0.N) (r : Fin 1024) (u : Fin 1) :
    (iblk m c 1 t : Vec Ideal S1024x1 .f32) (ix2 r u) = ys m c (ix1 (tileIdx h_tiles ⟨t.val, pt_lt t⟩ r)) := by
  obtain ⟨-, -, e0, e1, -⟩ := idx_facts t
  have hu : u.val = 0 := by omega
  show (V m c main_v1 : S16384x1.Idx → EReal) (((cfg0.win 1).blk t).view.emb (ix2 r u)) = _
  rw [V_col_y]
  refine (shapeCast_apply _ _ _ (ix1 (tileIdx h_tiles ⟨t.val, pt_lt t⟩ r)) ?_).trans rfl
  rw [Shape.rowMajor_val_one, Shape.rowMajor_val_two]
  show 1024 * t.val + r.val = (win0_1.index t (0 : Fin 2) * 1024 + 1 * r.val) * 1 + (win0_1.index t (1 : Fin 2) * 1 + 1 * u.val)
  omega

/-- Every point holds the whole row of predictions: lane `j` is sample `j`. -/
theorem rowblk_x (c : Dev nD) (t : Fin cfg0.N) (u : Fin 1) (j : Fin 16384) :
    (iblk m c 2 t : Vec Ideal S1x16384 .f32) (ix2 u j) = xs m c (ix1 j) := by
  obtain ⟨-, -, -, -, e0, e1, -⟩ := idx_facts t
  have hu : u.val = 0 := by omega
  have hj : j.val < 16384 := j.isLt
  show (V m c main_v2 : S1x16384.Idx → EReal) (((cfg0.win 2).blk t).view.emb (ix2 u j)) = _
  rw [V_row_x]
  refine (shapeCast_apply _ _ _ (ix1 j) ?_).trans rfl
  rw [Shape.rowMajor_val_one, Shape.rowMajor_val_two]
  show j.val = (win0_2.index t (0 : Fin 2) * 1 + 1 * u.val) * 16384 + (win0_2.index t (1 : Fin 2) * 16384 + 1 * j.val)
  omega

/-- And the whole row of targets. -/
theorem rowblk_y (c : Dev nD) (t : Fin cfg0.N) (u : Fin 1) (j : Fin 16384) :
    (iblk m c 3 t : Vec Ideal S1x16384 .f32) (ix2 u j) = ys m c (ix1 j) := by
  obtain ⟨-, -, -, -, -, -, e0, e1, -⟩ := idx_facts t
  have hu : u.val = 0 := by omega
  have hj : j.val < 16384 := j.isLt
  show (V m c main_v3 : S1x16384.Idx → EReal) (((cfg0.win 3).blk t).view.emb (ix2 u j)) = _
  rw [V_row_y]
  refine (shapeCast_apply _ _ _ (ix1 j) ?_).trans rfl
  rw [Shape.rowMajor_val_one, Shape.rowMajor_val_two]
  show j.val = (win0_3.index t (0 : Fin 2) * 1 + 1 * u.val) * 16384 + (win0_3.index t (1 : Fin 2) * 16384 + 1 * j.val)
  omega

/-! ## From the blocks to the output array -/

/-- The chunk sums of point `t`'s blocks are the sum for tile `t`. -/
theorem point_sum (c : Dev nD) (t : Fin cfg0.N) :
    ∑ k : Fin 32, chunkSum (iblk m c 0 t) (iblk m c 1 t) (iblk m c 2 t) (iblk m c 3 t) k
      = rowTileSum (xs m c) (ys m c) ⟨t.val, pt_lt t⟩ := by
  unfold chunkSum rowTileSum term
  refine Finset.sum_congr rfl fun k _ => Finset.sum_congr rfl fun r _ => Finset.sum_congr rfl fun l _ => ?_
  rw [colblk_x m c t r 0, colblk_y m c t r 0, rowblk_x m c t 0 (tileIdx h_chunks k l), rowblk_y m c t 0 (tileIdx h_chunks k l)]

/-- What point `t` writes back is block `t` of the output array. -/
theorem flushed_eq (c : Dev nD) (t : Fin cfg0.N) :
    (dats m 0 c).flushed 4 t = ((cfg0.win 4).blk t).view.read (Elt Ideal) (outArr (xs m c) (ys m c)) := by
  show (cfg0.win 4).cut (grid0.coords t) ((dats m 0 c).after 4 t) = _
  rw [after0_4]
  unfold outsAt0
  funext y
  obtain ⟨-, -, -, -, -, -, -, -, e0, e1, e2⟩ := idx_facts t
  refine (block_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) y).trans ?_
  rw [point_sum]
  show _ = outArr (xs m c) (ys m c) (((cfg0.win 4).blk t).view.emb y)
  unfold outArr
  refine congrArg (rowTileSum (xs m c) (ys m c)) (Fin.ext ?_)
  have hy : (y 0).val < 1 := (y 0).isLt
  show t.val = win0_4.index t (0 : Fin 3) * 1 + 1 * (y 0).val
  omega

/-- An index of the output array is in point `t`'s block iff each coordinate is in the block's range on its axis. -/
theorem mem_blk (t : Fin cfg0.N) (i : S16x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v4).slice (win0_4.rect t)).set ↔ _
  rw [View.set_slice_whole, Rect.mem_set_unit]
  exact Iff.rfl

/-- The 16 blocks tile the output array: entry `i` is in the block of point `i`. -/
theorem cover (i : S16x1x1.Idx) :
    ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 1 := (i 2).isLt
  obtain ⟨t, ht⟩ : ∃ t : Fin cfg0.N, t.val = (i 0).val := ⟨⟨(i 0).val, Nat.lt_of_lt_of_eq h0 N_0.symm⟩, rfl⟩
  obtain ⟨-, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- The output array after the region. -/
theorem final (c : Dev nD) : (dats m 0 c).arrAt 4 cfg0.N = outArr (xs m c) (ys m c) :=
  (dats m 0 c).arrAt_eq_of_cover 4 (outArr (xs m c) (ys m c)) (fun t _ => flushed_eq m c t) cover

/-! ## The host's tail -/

/-- A sum over the indices of a `[n, 1, 1]` array is the sum over its first coordinate. -/
theorem sum_idx3_n11 {M : Type*} [AddCommMonoid M] {n : ℕ} (f : (⟨3, ![n, 1, 1]⟩ : Shape).Idx → M) :
    ∑ i, f i = ∑ a : Fin n, f (ix3 a (0 : Fin 1) (0 : Fin 1)) := by
  let e : (⟨3, ![n, 1, 1]⟩ : Shape).Idx ≃ Fin n :=
    { toFun := fun i => i 0
      invFun := fun a => ix3 a (0 : Fin 1) (0 : Fin 1)
      left_inv := fun i => funext fun d => match d with
        | ⟨0, _⟩ => rfl
        | ⟨1, _⟩ => Fin.ext (by have h : (i 1).val < 1 := (i 1).isLt; show 0 = (i 1).val; omega)
        | ⟨2, _⟩ => Fin.ext (by have h : (i 2).val < 1 := (i 2).isLt; show 0 = (i 2).val; omega)
      right_inv := fun _ => rfl }
  exact (Equiv.sum_comp e.symm f).symm

/-- The 16 entries of the output array add up to the sum over all ordered pairs: the tiles partition the pairs. -/
theorem sum_outArr (x y : Arr) : ∑ j : S16x1x1.Idx, outArr x y j = total x y := by
  rw [sum_idx3_n11]
  show ∑ a : Fin 16, rowTileSum x y a = _
  unfold rowTileSum total
  exact sum_tiles h_tiles h_chunks (term x y)

/-- The host's sum of a `[16, 1, 1]` array into a scalar, at the ideal values: the initial value plus every entry. -/
theorem hostSum_apply (X : FVec Ideal S16x1x1 .f32) (v : FVec Ideal S_ .f32) (i : S_.Idx) :
    Host.reduceAdd (F := Ideal) X v reducesTo_S16x1x1_S_d0_1_2 h_S_ i = v (Shape.Idx.first h_S_) + ∑ j, X j := by
  simp only [Host.reduceAdd, Ideal.hostReduceAdd_def]
  exact Ideal.hostReduceAdd_total reducesTo_S16x1x1_S_d0_1_2 (fun b => b.elim0) X _ i

/-- What the lines after the region leave in the result buffer: the statistic of the two arguments. -/
theorem tail_eq (c : Dev nD) :
    (Pipeline.afterTail₀ cfgs (dats m) 0 (V0 m) [hostOps1] c main_v7 : S_.Idx → EReal) = stat (xs m c) (ys m c) := by
  have hw : (Pipeline.withArrays (cfgs 0).spec c (V0 m c) (fun w => (dats m 0 c).arrAt w (cfgs 0).N)
      (Proc.devRef .tc main_v4) : S16x1x1.Idx → EReal) = outArr (xs m c) (ys m c) :=
    (Pipeline.withArrays_arr spec0 launch0.win.arr_inj c _ _ 4).trans (final m c)
  unfold Pipeline.afterTail₀
  show StableHlo.after hostOps1 _ (Proc.devRef .tc main_v7) = _
  after_results
  funext i
  show Ideal.ofBits .f32 0x3F800000#32
      - Ideal.div (Host.reduceAdd (F := Ideal) _ (constant (F := Ideal) S_ .f32 0x00000000#32) reducesTo_S16x1x1_S_d0_1_2 h_S_ i)
          (Ideal.ofBits .f32 0x4D7FFC00#32) = _
  rw [hostSum_apply, hw, sum_outArr]
  show _ - Ideal.div (Ideal.ofBits .f32 0x00000000#32 + _) _ = _
  rw [Ideal.ofBits_zero_f32, zero_add]
  rfl

/-! ## The run -/

/-- Every weakly fair execution of the idealized kernel terminates with the statistic of its arguments in the result
    buffer and the arguments unchanged. -/
theorem kernel_run : θ_run defs (onTc (τ := τ) (main (F := Ideal))) ⟨m, fun _ => 0, ρ⟩ (fun r => ∀ c : Dev nD,
      r.2.mem ((c.tc : Thread nD τ).loc main_v7) = stat (xs m c) (ys m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v7 (Pipeline.mem_restRefs_of main_v7 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Kendall

end
-- ==== Proof.Consts.lean ====
/-
  The float words the two programs spell beyond the ones they share, as the extended reals they denote: `0.5` and `2.0`,
  by which the reference first halves and then doubles the pair sum, and the law that the two cancel on every extended
  real (the infinities included: `2 * (⊤ * 1/2) = ⊤`), so no finiteness is asked of the sum.
-/
import Idealize.ShloMosaic.PureOps.Ideal
import Idealize.ShloMosaic.PureOps.Ideal.Laws

noncomputable section

namespace Cert.Kendall

open Idealize.ShloMosaic

/-- The word `0x3F000000` denotes one half. -/
theorem ofBits_half : Ideal.ofBits .f32 0x3F000000#32 = (((1 : ℝ) / 2 : ℝ) : EReal) := by
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- Doubling a half of `x` gives `x` back, on all of the extended reals: multiplication there is commutative and
    associative, and `2 * (1/2) = 1` in the reals. -/
theorem two_mul_mul_half (x : EReal) : ((2 : ℝ) : EReal) * (x * (((1 : ℝ) / 2 : ℝ) : EReal)) = x := by
  rw [mul_comm x, ← mul_assoc, ← EReal.coe_mul]
  norm_num

/-- The same over the two words. -/
theorem ofBits_two_mul_mul_half (x : EReal) :
    Ideal.ofBits .f32 0x40000000#32 * (x * Ideal.ofBits .f32 0x3F000000#32) = x := by
  rw [ofBits_half, ofBits_two]; exact two_mul_mul_half x

end Cert.Kendall

end
-- ==== Proof.RefValue.lean ====
/-
  The reference computes the statistic. Its table entry at `(a, b)` is the pair term of samples `a` and `b`: the two
  broadcasts of an argument to the square table read it at the row's sample and at the column's, and the clip is
  `min(1, max(-1, .))`. Its result is `1 - (2 * ((0 + T) * 0.5)) / D` with `T` the sum of the whole table; `0 + T = T`,
  and doubling a half cancels on every extended real, which leaves `1 - T / D`.
-/
import proofs.«113386_j58325655880083_2_alg».proof.Proof.Gen.ReferenceIdeal.Read
import proofs.«113386_j58325655880083_2_alg».proof.Proof.Stat
import proofs.«113386_j58325655880083_2_alg».proof.Proof.Consts
import Idealize.ShloMosaic.Lib.ValueIdx
import Idealize.ShloMosaic.PureOps.Ideal.Laws

noncomputable section

namespace Cert.Kendall

open Idealize.ShloMosaic Idealize.ShloMosaic.ValueIdx Cert.ReferenceIdeal Cert.ReferenceIdeal.Read

/-- The reference's table of pair products, at row `a` and column `b`, is the pair term of samples `a` and `b`. -/
theorem ref_table_apply (x y : Arr) (a b : Fin 16384) :
    val_main_v12 (F := Ideal) x y (ix2 a b) = term x y a b := by
  have r0 : idx_main_v0 (idx_main_v2 (ix2 a b)) = ix1 a := funext fun d => match d with | ⟨0, _⟩ => rfl
  have c0 : idx_main_v1 (idx_main_v3 (ix2 a b)) = ix1 b := funext fun d => match d with | ⟨0, _⟩ => rfl
  have r1 : idx_main_v6 (idx_main_v8 (ix2 a b)) = ix1 a := funext fun d => match d with | ⟨0, _⟩ => rfl
  have c1 : idx_main_v7 (idx_main_v9 (ix2 a b)) = ix1 b := funext fun d => match d with | ⟨0, _⟩ => rfl
  rw [val_main_v12_apply, val_main_v5_apply, val_main_v11_apply,
    val_main_call0_v4_apply, val_main_call0_v3_apply, val_main_cst_0_apply,
    val_main_call0_v2_apply, val_main_call0_v1_apply, val_main_call0_v0_apply, val_main_cst_apply,
    val_main_v4_apply, val_main_v2_apply, val_main_v3_apply, val_main_v0_apply, val_main_v1_apply,
    val_main_call1_v4_apply, val_main_call1_v3_apply, val_main_cst_2_apply,
    val_main_call1_v2_apply, val_main_call1_v1_apply, val_main_call1_v0_apply, val_main_cst_1_apply,
    val_main_v10_apply, val_main_v8_apply, val_main_v9_apply, val_main_v6_apply, val_main_v7_apply,
    r0, c0, r1, c1]
  rfl

/-- The reference's result is the statistic of its two arguments. -/
theorem ref_eq_stat (x y : Arr) : val_main_v17 (F := Ideal) x y = stat x y := by
  funext i
  rw [val_main_v17_apply, val_main_v16_apply, val_main_v15_apply, val_main_v14_apply, val_main_v13_apply,
    val_main_cst_7_apply, val_main_cst_6_apply, val_main_cst_5_apply, val_main_cst_4_apply, val_main_cst_3_apply]
  simp only [Ideal.subf_def, Ideal.hostDivf_def, Ideal.mulf_def, Ideal.ofBits_def, Ideal.ofBits_zero_f32, zero_add,
    ofBits_two_mul_mul_half]
  unfold stat total
  rw [sum_idx2]
  simp only [ref_table_apply]

end Cert.Kendall

end
-- ==== Proof.lean ====
/-
  The kernel and its reference compute one statistic of two arrays `x`, `y` of 16384 samples,
  `1 - T / (16384 * 16383)` with `T` the sum over all ordered pairs `(i, j)` of
  `clip (x i - x j) * clip (y i - y j)`, the clip to `[-1, 1]`; read on the extended reals.
  * The reference forms the whole 16384 x 16384 table and sums it, then halves, doubles, divides and subtracts from
    one; halving and doubling cancel on every extended real.
  * The kernel cuts the rows into 16 tiles of 1024 (one grid point each) and the columns into 32 chunks of 512 (one
    loop trip each); a trip sums its 1024 x 512 pair products and adds them to a carried value that starts at zero; a
    point writes the carried value to its entry of a `[16, 1, 1]` array, which the host then sums, divides and
    subtracts from one.
  The two agree because the tiles partition the ordered pairs and addition on the extended reals is commutative and
  associative: no finiteness of the inputs is used. Both spell the clip `min(1, max(-1, .))` with the same words, and
  divide by the same word, so neither the bounds nor the divisor is ever evaluated.
  The three frames: the kernel's two are the generated frame runs, the reference's is its run with the result dropped.
  The idealization rewrote nothing, so what it preserves is trivial.
-/
import proofs.«113386_j58325655880083_2_alg».proof.Defs
import proofs.«113386_j58325655880083_2_alg».proof.Proof.Gen.Kernel
import proofs.«113386_j58325655880083_2_alg».proof.Proof.Gen.Kernel.Skeleton
import proofs.«113386_j58325655880083_2_alg».proof.Proof.Gen.Kernel.Loops
import proofs.«113386_j58325655880083_2_alg».proof.Proof.Gen.Kernel.Launch
import proofs.«113386_j58325655880083_2_alg».proof.Proof.Gen.Kernel.Points
import proofs.«113386_j58325655880083_2_alg».proof.Proof.Gen.Kernel.Frame
import proofs.«113386_j58325655880083_2_alg».proof.Proof.Gen.KernelIdeal
import proofs.«113386_j58325655880083_2_alg».proof.Proof.Gen.KernelIdeal.Skeleton
import proofs.«113386_j58325655880083_2_alg».proof.Proof.Gen.KernelIdeal.Loops
import proofs.«113386_j58325655880083_2_alg».proof.Proof.Gen.KernelIdeal.Launch
import proofs.«113386_j58325655880083_2_alg».proof.Proof.Gen.KernelIdeal.Points
import proofs.«113386_j58325655880083_2_alg».proof.Proof.Gen.KernelIdeal.Frame
import proofs.«113386_j58325655880083_2_alg».proof.Proof.Gen.ReferenceIdeal
import proofs.«113386_j58325655880083_2_alg».proof.Proof.Gen.ReferenceIdeal.Run
import proofs.«113386_j58325655880083_2_alg».proof.Proof.Gen.ReferenceIdeal.Read
import proofs.«113386_j58325655880083_2_alg».proof.Proof.Gen.Pre_finite_inputs
import proofs.«113386_j58325655880083_2_alg».proof.Proof.KernelValue
import proofs.«113386_j58325655880083_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, both idealized programs end with the statistic of the kernel's
    arguments in their result buffers. -/
theorem algebraic : Cert.algebraic_KernelIdeal_ReferenceIdeal := by
  intro m ρ m' ρ' _ hagree
  refine ⟨fun c => Cert.Kendall.stat (Cert.Kendall.xs m c) (Cert.Kendall.ys m c), Cert.Kendall.kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _).trans ?_
  rw [Cert.Kendall.ref_eq_stat, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
